-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S10 : Shape := ⟨1, ![10]⟩
abbrev S4096x10 : Shape := ⟨2, ![4096, 10]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S10 : S_.BroadcastsInDim S10 (![] : Fin 0 → Fin S10.rank)
  reducesTo_S10_S_d0 : S10.ReducesTo [0] S_
  bcast_S_S4096x10 : S_.BroadcastsInDim S4096x10 (![] : Fin 0 → Fin S4096x10.rank)
  reducesTo_S4096x10_S_d0_1 : S4096x10.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x4096 .f32) (main_arg5 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x4096x1024 .f32) (main_arg1 : FVec F S10 .f32) (main_arg2 : FVec F S4096x10 .f32) (main_arg3 : FVec F S4096 .f32) (main_arg4 : FVec F S1024x4096 .f32) (main_arg5 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S10 .f32 := Host.absf main_arg1
  let main_cst_0 : FVec F S_ .f32 := constant S_ .f32 0x7F800000#32
  let main_v5 : FVec F S10 .f32 := broadcastInDim S10 ![] bcast_S_S10 main_cst_0
  let main_v6 : IVec S10 1 := cmpf .olt main_v4 main_v5
  let main_c_1 : IVec S_ 1 := constantI S_ 1 1#1
  let main_v7 : IVec S_ 1 := (fun x v => Host.reduce IntOp.andi x v reducesTo_S10_S_d0 h_S_) main_v6 main_c_1
  let main_v8 : IVec S_ 1 := andi main_v3 main_v7
  let main_v9 : FVec F S4096x10 .f32 := Host.absf main_arg2
  let main_cst_2 : FVec F S_ .f32 := constant S_ .f32 0x7F800000#32
  let main_v10 : FVec F S4096x10 .f32 := broadcastInDim S4096x10 ![] bcast_S_S4096x10 main_cst_2
  let main_v11 : IVec S4096x10 1 := cmpf .olt main_v9 main_v10
  let main_c_3 : IVec S_ 1 := constantI S_ 1 1#1
  let main_v12 : IVec S_ 1 := (fun x v => Host.reduce IntOp.andi x v reducesTo_S4096x10_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S4x4096x1024 : Shape := ⟨3, ![4, 4096, 1024]⟩
abbrev S10 : Shape := ⟨1, ![10]⟩
abbrev S4096x10 : Shape := ⟨2, ![4096, 10]⟩
abbrev S4096 : Shape := ⟨1, ![4096]⟩
abbrev S1024x4096 : Shape := ⟨2, ![1024, 4096]⟩
abbrev S1024 : Shape := ⟨1, ![1024]⟩
abbrev S16384x1024 : Shape := ⟨2, ![16384, 1024]⟩
abbrev S1x10 : Shape := ⟨2, ![1, 10]⟩
abbrev S10x4096 : Shape := ⟨2, ![10, 4096]⟩
abbrev S4096x1024 : Shape := ⟨2, ![4096, 1024]⟩
abbrev S1x4096 : Shape := ⟨2, ![1, 4096]⟩
abbrev S1x1024 : Shape := ⟨2, ![1, 1024]⟩
abbrev S512x128 : Shape := ⟨2, ![512, 128]⟩
abbrev S512x1024 : Shape := ⟨2, ![512, 1024]⟩
abbrev S512x10 : Shape := ⟨2, ![512, 10]⟩
abbrev S10x2048 : Shape := ⟨2, ![10, 2048]⟩
abbrev S1x2048 : Shape := ⟨2, ![1, 2048]⟩
abbrev S512x2048 : Shape := ⟨2, ![512, 2048]⟩
abbrev S2048x1024 : Shape := ⟨2, ![2048, 1024]⟩

abbrev nBuf : Space → Nat
  | .hbm => 19
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S10, .f32⟩
  | .hbm, ⟨2, _⟩ => ⟨S4096x10, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S16384x1024, .f32⟩
  | .hbm, ⟨7, _⟩ => ⟨S10, .f32⟩
  | .hbm, ⟨8, _⟩ => ⟨S1x10, .f32⟩
  | .hbm, ⟨9, _⟩ => ⟨S4096x10, .f32⟩
  | .hbm, ⟨10, _⟩ => ⟨S4096x10, .f32⟩
  | .hbm, ⟨11, _⟩ => ⟨S10x4096, .f32⟩
  | .hbm, ⟨12, _⟩ => ⟨S10x4096, .bf16⟩
  | .hbm, ⟨13, _⟩ => ⟨S4096x1024, .f32⟩
  | .hbm, ⟨14, _⟩ => ⟨S4096x1024, .bf16⟩
  | .hbm, ⟨15, _⟩ => ⟨S1x4096, .f32⟩
  | .hbm, ⟨16, _⟩ => ⟨S1x1024, .f32⟩
  | .hbm, ⟨17, _⟩ => ⟨S16384x1024, .f32⟩
  | .hbm, ⟨18, _⟩ => ⟨S4x4096x1024, .f32⟩
  | .local _ .vmem, ⟨0, _⟩ => ⟨S512x128, .f32⟩
  | .local _ .vmem, ⟨1, _⟩ => ⟨S512x128, .f32⟩
  | .local _ .vmem, ⟨2, _⟩ => ⟨S10x4096, .bf16⟩
  | .local _ .vmem, ⟨3, _⟩ => ⟨S1x4096, .f32⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x4096x1024_S16384x1024 : S4x4096x1024.ShapeCasts S16384x1024
  bcast_S10_S1x10_1 : S10.BroadcastsInDim S1x10 (![1] : Fin 1 → Fin S1x10.rank)
  bcast_S1x10_S4096x10_0_1 : S1x10.BroadcastsInDim S4096x10 (![0, 1] : Fin 2 → Fin S4096x10.rank)
  transposes_S4096x10_S10x4096_1_0 : S4096x10.Transposes [1, 0] S10x4096
  bitsLt_bf16_f32 : FTy.bits .bf16 < FTy.bits .f32
  transposes_S1024x4096_S4096x1024_1_0 : S1024x4096.Transposes [1, 0] S4096x1024
  shapeCasts_S4096_S1x4096 : S4096.ShapeCasts S1x4096
  shapeCasts_S1024_S1x1024 : S1024.ShapeCasts S1x1024
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S512x128_o0_0_S512x10 : S512x128.Slices ![0, 0] S512x10
  inb_S10x4096_S10x2048_0_0 : ∀ a, (![0, 0] : Fin 2 → Nat) a + S10x2048.size a ≤ S10x4096.size a
  h_S10x2048 : 0 < S10x2048.numel
  shapeCasts_S10x2048_S10x2048 : S10x2048.ShapeCasts S10x2048
  inb_S1x4096_S1x2048_0_0 : ∀ a, (![0, 0] : Fin 2 → Nat) a + S1x2048.size a ≤ S1x4096.size a
  h_S1x2048 : 0 < S1x2048.numel
  shapeCasts_S1x2048_S1x2048 : S1x2048.ShapeCasts S1x2048
  broadcasts_S1x2048_S512x2048 : S1x2048.Broadcasts S512x2048
  inb_S4096x1024_S2048x1024_0_0 : ∀ a, (![0, 0] : Fin 2 → Nat) a + S2048x1024.size a ≤ S4096x1024.size a
  h_S2048x1024 : 0 < S2048x1024.numel
  shapeCasts_S2048x1024_S2048x1024 : S2048x1024.ShapeCasts S2048x1024
  inb_S10x4096_S10x2048_0_2048 : ∀ a, (![0, 2048] : Fin 2 → Nat) a + S10x2048.size a ≤ S10x4096.size a
  inb_S1x4096_S1x2048_0_2048 : ∀ a, (![0, 2048] : Fin 2 → Nat) a + S1x2048.size a ≤ S1x4096.size a
  inb_S4096x1024_S2048x1024_2048_0 : ∀ a, (![2048, 0] : Fin 2 → Nat) a + S2048x1024.size a ≤ S4096x1024.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S16384x1024_S4x4096x1024 : S16384x1024.ShapeCasts S4x4096x1024
  dot_S512x10_S10x2048_S512x2048_1_0_0_1_n_n_wf : DotDims.WF S512x10 S10x2048 S512x2048 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S16384x1024.size a
  hwx0_0 : ∀ i : grid0.Coords, EltTy.bits .f32 = 32 ∨ (Rect.block (s := S16384x1024) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x4096.size a ≤ S10x4096.size a
  hwx0_1 : ∀ i : grid0.Coords, EltTy.bits .bf16 = 32 ∨ (Rect.block (s := S10x4096) S10x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .f32 = 32 ∨ (Rect.block (s := S16384x1024) S512x1024.size (cc0_transform_5 i) (hinb0_5 i)).WholeWords (EltTy.packing .f32)

variable [Facts₀]

def dot_S512x10_S10x2048_S512x2048_1_0_0_1_n_n : DotDims S512x10 S10x2048 S512x2048 where
  lhsContracting := [1]
  rhsContracting := [0]
  lhsNonContracting := [0]
  rhsNonContracting := [1]
  lhsBatch := []
  rhsBatch := []
  wf := dot_S512x10_S10x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S10x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S10 : Shape := ⟨1, ![10]⟩
abbrev S4096x10 : Shape := ⟨2, ![4096, 10]⟩
abbrev S4096 : Shape := ⟨1, ![4096]⟩
abbrev S1024x4096 : Shape := ⟨2, ![1024, 4096]⟩
abbrev S1024 : Shape := ⟨1, ![1024]⟩
abbrev S4x4096x10 : Shape := ⟨3, ![4, 4096, 10]⟩
abbrev S1x1x10 : Shape := ⟨3, ![1, 1, 10]⟩
abbrev S4x4096x4096 : Shape := ⟨3, ![4, 4096, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S10, .f32⟩
  | .hbm, ⟨2, _⟩ => ⟨S4096x10, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S4x4096x10, .f32⟩
  | .hbm, ⟨7, _⟩ => ⟨S4x4096x10, .f32⟩
  | .hbm, ⟨8, _⟩ => ⟨S10, .f32⟩
  | .hbm, ⟨9, _⟩ => ⟨S1x1x10, .f32⟩
  | .hbm, ⟨10, _⟩ => ⟨S4x4096x10, .f32⟩
  | .hbm, ⟨11, _⟩ => ⟨S4x4096x10, .f32⟩
  | .hbm, ⟨12, _⟩ => ⟨S4x4096x4096, .f32⟩
  | .hbm, ⟨13, _⟩ => ⟨S1x1x4096, .f32⟩
  | .hbm, ⟨14, _⟩ => ⟨S4x4096x4096, .f32⟩
  | .hbm, ⟨15, _⟩ => ⟨S4x4096x4096, .f32⟩
  | .hbm, ⟨16, _⟩ => ⟨S_, .f32⟩
  | .hbm, ⟨17, _⟩ => ⟨S4x4096x4096, .f32⟩
  | .hbm, ⟨18, _⟩ => ⟨S4x4096x4096, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S4x4096x1024_S4x4096x10_0_0_0 : S4x4096x1024.Slices ![0, 0, 0] S4x4096x10
  bcast_S10_S1x1x10_2 : S10.BroadcastsInDim S1x1x10 (![2] : Fin 1 → Fin S1x1x10.rank)
  bcast_S1x1x10_S4x4096x10_0_1_2 : S1x1x10.BroadcastsInDim S4x4096x10 (![0, 1, 2] : Fin 3 → Fin S4x4096x10.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  dot_S4x4096x10_S4096x10_S4x4096x4096_2_1_01_0_n_n_wf : DotDims.WF S4x4096x10 S4096x10 S4x4096x4096 [2] [1] [0, 1] [0] [] []
  dot_S4x4096x4096_S1024x4096_S4x4096x1024_2_1_01_0_n_n_wf : DotDims.WF S4x4096x4096 S1024x4096 S4x4096x1024 [2] [1] [0, 1] [0] [] []

variable [Facts₀]

def dot_S4x4096x10_S4096x10_S4x4096x4096_2_1_01_0_n_n : DotDims S4x4096x10 S4096x10 S4x4096x4096 where
  lhsContracting := [2]
  rhsContracting := [1]
  lhsNonContracting := [0, 1]
  rhsNonContracting := [0]
  lhsBatch := []
  rhsBatch := []
  wf := dot_S4x4096x10_S4096x10_S4x4096x4096_2_1_01_0_n_n_wf
def dot_S4x4096x4096_S1024x4096_S4x4096x1024_2_1_01_0_n_n : DotDims S4x4096x4096 S1024x4096 S4x4096x1024 where
  lhsContracting := [2]
  rhsContracting := [1]
  lhsNonContracting := [0, 1]
  rhsNonContracting := [0]
  lhsBatch := []
  rhsBatch := []
  wf := dot_S4x4096x4096_S1024x4096_S4x4096x1024_2_1_01_0_n_n_wf

class Facts : Prop extends Facts₀ where

variable [Facts]
-- ==== Proof.Spec.lean ====
/-
  The mathematics of the feed-forward block, over the extended reals, with no program in sight.

  A token is a row of 1024 features, of which only the first ten are read. Feature `q` enters as
  `c_q = cos x_q · cos θ_q`. Hidden unit `f` (of 4096) is `max (Σ_q c_q · w1[f,q] + b1[f]) 0`, and output column `e` (of 1024)
  is `Σ_f hidden_f · w2[e,f] + b2[e]`.

  One arrangement computes exactly that (`G`). The other folds `cos θ_q` into the first weight matrix once —
  `cos x_q · (w1[f,q] · cos θ_q)` — and adds the hidden units' contributions in two halves of 2048 onto a zero.
  `halves_eq` is the one law between them: products in the extended reals commute and associate, a sum over 4096 terms
  is the sum over its first 2048 plus the sum over its last 2048, and `0 + a = a`. No distributivity and no cancelling
  is used, so no finiteness is needed.
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx
open scoped BigOperators

namespace Cert.FfnSpec

/-- The shapes of the six arguments. -/
abbrev SX : Shape := ⟨3, ![4, 4096, 1024]⟩
abbrev ST : Shape := ⟨1, ![10]⟩
abbrev SW1 : Shape := ⟨2, ![4096, 10]⟩
abbrev SB1 : Shape := ⟨1, ![4096]⟩
abbrev SW2 : Shape := ⟨2, ![1024, 4096]⟩
abbrev SB2 : Shape := ⟨1, ![1024]⟩

/-- Feature `q` of ten, as a column of the 1024. -/
abbrev col (q : Fin 10) : Fin 1024 := ⟨q.val, Nat.lt_of_lt_of_le q.isLt (by decide)⟩

/-- A hidden unit: the rectified affine form of ten features. -/
def unit (g w : Fin 10 → EReal) (b : EReal) : EReal := max ((∑ q : Fin 10, g q * w q) + b) 0

/-- The result at `(b, s, e)`: every hidden unit of token `(b, s)` against row `e` of the second weight matrix, plus the bias. -/
def G (x : SX.Idx → EReal) (θ : ST.Idx → EReal) (w1 : SW1.Idx → EReal) (b1 : SB1.Idx → EReal) (w2 : SW2.Idx → EReal)
    (b2 : SB2.Idx → EReal) : SX.Idx → EReal := fun i =>
  (∑ f : Fin 4096, unit (fun q => Ideal.cos (x (ix3 (i 0) (i 1) (col q))) * Ideal.cos (θ (ix1 q))) (fun q => w1 (ix2 f q)) (b1 (ix1 f))
      * w2 (ix2 (i 2) f))
    + b2 (ix1 (i 2))

/-- Folding a feature's second factor into the weight does not change a hidden unit. -/
theorem unit_fold (cx ct w : Fin 10 → EReal) (b : EReal) :
    unit cx (fun q => w q * ct q) b = unit (fun q => cx q * ct q) w b := by
  unfold unit
  refine congrArg (fun s => max (s + b) 0) (Finset.sum_congr rfl fun q _ => ?_)
  show cx q * (w q * ct q) = (cx q * ct q) * w q
  rw [mul_comm (w q) (ct q), mul_assoc]

/-- Hidden unit `f` of the first half, and of the second, among the 4096. -/
abbrev lo (f : Fin 2048) : Fin 4096 := ⟨f.val, Nat.lt_of_lt_of_le f.isLt (by decide)⟩
abbrev hi (f : Fin 2048) : Fin 4096 := ⟨2048 + f.val, Nat.add_lt_add_left f.isLt 2048⟩

/-- The two halves, added onto zero, are the whole sum. -/
theorem halves_sum (a : Fin 4096 → EReal) :
    (0 + ∑ f : Fin 2048, a (lo f)) + ∑ f : Fin 2048, a (hi f) = ∑ f : Fin 4096, a f := by
  rw [zero_add]
  exact (Fin.sum_univ_add (a := 2048) (b := 2048) a).symm

/-- THE LAW: the folded, halved arrangement is the plain one. -/
theorem halves_eq (cx ct : Fin 10 → EReal) (w1 : Fin 4096 → Fin 10 → EReal) (b1 w2 : Fin 4096 → EReal) (b2 : EReal) :
    ((0 + ∑ f : Fin 2048, unit cx (fun q => w1 (lo f) q * ct q) (b1 (lo f)) * w2 (lo f))
        + ∑ f : Fin 2048, unit cx (fun q => w1 (hi f) q * ct q) (b1 (hi f)) * w2 (hi f))
      + b2
    = (∑ f : Fin 4096, unit (fun q => cx q * ct q) (w1 f) (b1 f) * w2 f) + b2 := by
  rw [halves_sum (fun f => unit cx (fun q => w1 f q * ct q) (b1 f) * w2 f)]
  refine congrArg (· + b2) (Finset.sum_congr rfl fun f _ => ?_)
  rw [unit_fold]

/-! ## The same result as a matrix of 16384 token rows -/

/-- The shape of the flattened result: token `(b, s)` is row `4096·b + s`. -/
abbrev SO2 : Shape := ⟨2, ![16384, 1024]⟩

/-- The batch and the position of a token row. -/
abbrev batchOf (r : Fin 16384) : Fin 4 := ⟨r.val / 4096, by have := r.isLt; omega⟩
abbrev posOf (r : Fin 16384) : Fin 4096 := ⟨r.val % 4096, Nat.mod_lt _ (by decide)⟩

/-- `G` with the two token axes flattened into one. -/
def G2 (x : SX.Idx → EReal) (θ : ST.Idx → EReal) (w1 : SW1.Idx → EReal) (b1 : SB1.Idx → EReal) (w2 : SW2.Idx → EReal)
    (b2 : SB2.Idx → EReal) : SO2.Idx → EReal := fun j => G x θ w1 b1 w2 b2 (ix3 (batchOf (j 0)) (posOf (j 0)) (j 1))

/-- Unflattening the matrix of token rows gives `G` back: row `4096·b + s` is token `(b, s)`. -/
theorem unflatten_G2 (x : SX.Idx → EReal) (θ : ST.Idx → EReal) (w1 : SW1.Idx → EReal) (b1 : SB1.Idx → EReal) (w2 : SW2.Idx → EReal)
    (b2 : SB2.Idx → EReal) (h : SO2.ShapeCasts SX) : shapeCast SX (G2 x θ w1 b1 w2 b2) h = G x θ w1 b1 w2 b2 := by
  funext i
  obtain ⟨b, s, e, rfl⟩ : ∃ (b : Fin 4) (s : Fin 4096) (e : Fin 1024), i = ix3 b s e := ⟨i 0, i 1, i 2, eq_ix3 i⟩
  have hr : b.val * 4096 + s.val < 16384 := by have := b.isLt; have := s.isLt; omega
  rw [shapeCast_apply (G2 x θ w1 b1 w2 b2) h (ix3 b s e) (ix2 (⟨b.val * 4096 + s.val, hr⟩ : Fin 16384) e) (by
    rw [Shape.rowMajor_val_three, Shape.rowMajor_val_two]; rfl)]
  unfold G2
  have eb : batchOf (⟨b.val * 4096 + s.val, hr⟩ : Fin 16384) = b := Fin.ext (by
    show (b.val * 4096 + s.val) / 4096 = b.val; have := s.isLt; omega)
  have es : posOf (⟨b.val * 4096 + s.val, hr⟩ : Fin 16384) = s := Fin.ext (by
    show (b.val * 4096 + s.val) % 4096 = s.val; have := s.isLt; omega)
  show G x θ w1 b1 w2 b2 (ix3 (batchOf ⟨b.val * 4096 + s.val, hr⟩) (posOf ⟨b.val * 4096 + s.val, hr⟩) e) = _
  rw [eb, es]

end Cert.FfnSpec

end
-- ==== Proof.RefValue.lean ====
/-
  The reference, read index by index, is the plain arrangement `G` of the feed-forward block.

  Its term is: slice the first ten features, take cosines, multiply by the broadcast `cos θ`, contract with the first
  weight matrix over the ten features, add the broadcast bias, rectify against a broadcast zero, contract with the second
  weight matrix over the 4096 hidden units, add the broadcast bias. Each stage is read at an index; what remains is that
  the stages' composed index maps are the coordinates `G` names, which hold axis by axis by computation.
-/
import proofs.«120660_j65481071396002_2_alg».proof.Proof.Gen.ReferenceIdeal.Read
import proofs.«120660_j65481071396002_2_alg».proof.Proof.Spec

noncomputable section

open Idealize.ShloMosaic Idealize.ShloMosaic.ValueIdx
open scoped BigOperators

namespace Cert.ReferenceIdeal.RefValue

open Cert.ReferenceIdeal Cert.ReferenceIdeal.Read Cert.FfnSpec

variable (x0 : (⟨S4x4096x1024, .f32⟩ : BufTy).Contents (Elt Ideal)) (x1 : (⟨S10, .f32⟩ : BufTy).Contents (Elt Ideal))
  (x2 : (⟨S4096x10, .f32⟩ : BufTy).Contents (Elt Ideal)) (x3 : (⟨S4096, .f32⟩ : BufTy).Contents (Elt Ideal))
  (x4 : (⟨S1024x4096, .f32⟩ : BufTy).Contents (Elt Ideal)) (x5 : (⟨S1024, .f32⟩ : BufTy).Contents (Elt Ideal))

/-- A feature of token `(i 0, i 1)`: the sliced cosine times the twice-broadcast `cos θ`. -/
theorem feature_apply (i : S4x4096x1024.Idx) (f : Fin 4096) (q : Fin 10) :
    val_main_v5 (F := Ideal) x0 x1 (lidx_main_v6 (lidx_main_v11 i f) q)
      = Ideal.cos (x0 (ix3 (i 0) (i 1) (col q))) * Ideal.cos (x1 (ix1 q)) := by
  rw [val_main_v5_apply, val_main_v1_apply, val_main_v0_apply, val_main_v4_apply, val_main_v3_apply, val_main_v2_apply]
  have e0 : idx_main_v0 (lidx_main_v6 (lidx_main_v11 i f) q) = ix3 (i 0) (i 1) (col q) :=
    funext fun a => Fin.ext (by match a with | ⟨0, _⟩ => rfl | ⟨1, _⟩ => rfl | ⟨2, _⟩ => rfl)
  have e1 : idx_main_v3 (idx_main_v4 (lidx_main_v6 (lidx_main_v11 i f) q)) = ix1 q :=
    funext fun a => Fin.ext (by match a with | ⟨0, _⟩ => rfl)
  rw [e0, e1]
  rfl

/-- A hidden unit of the reference is `unit` of the token's features, row `f` of the first weight matrix and its bias. -/
theorem hidden_apply (i : S4x4096x1024.Idx) (f : Fin 4096) :
    val_main_v10 (F := Ideal) x0 x1 x2 x3 (lidx_main_v11 i f)
      = unit (fun q => Ideal.cos (x0 (ix3 (i 0) (i 1) (col q))) * Ideal.cos (x1 (ix1 q))) (fun q => x2 (ix2 f q)) (x3 (ix1 f)) := by
  rw [val_main_v10_apply, val_main_v9_apply, val_main_v6_apply, val_main_v8_apply, val_main_v7_apply,
    val_main_call0_v0_apply, val_main_call0_cst_apply]
  have e2 : ∀ q : Fin 10, ridx_main_v6 (lidx_main_v11 i f) q = ix2 f q := fun q =>
    funext fun a => Fin.ext (by match a with | ⟨0, _⟩ => rfl | ⟨1, _⟩ => rfl)
  have e3 : idx_main_v7 (idx_main_v8 (lidx_main_v11 i f)) = ix1 f :=
    funext fun a => Fin.ext (by match a with | ⟨0, _⟩ => rfl)
  rw [e3]
  simp only [feature_apply, e2]
  show max (_ + _) (Ideal.ofBits .f32 0x00000000#32) = _
  rw [Ideal.ofBits_zero_f32]
  rfl

/-- THE REFERENCE IS `G`. -/
theorem ref_eq : val_main_v14 (F := Ideal) x0 x1 x2 x3 x4 x5 = G x0 x1 x2 x3 x4 x5 := by
  funext i
  rw [val_main_v14_apply, val_main_v11_apply, val_main_v13_apply, val_main_v12_apply]
  have e4 : ∀ f : Fin 4096, ridx_main_v11 i f = ix2 (i 2) f := fun f =>
    funext fun a => Fin.ext (by match a with | ⟨0, _⟩ => rfl | ⟨1, _⟩ => rfl)
  have e5 : idx_main_v12 (idx_main_v13 i) = ix1 (i 2) :=
    funext fun a => Fin.ext (by match a with | ⟨0, _⟩ => rfl)
  rw [e5]
  simp only [hidden_apply, e4]
  rfl

end Cert.ReferenceIdeal.RefValue

end
-- ==== Proof.KernelPayload.lean ====
/-
  The kernel's arithmetic at one grid point, read entry by entry over the extended reals.

  The body loads a block of 512 tokens (128 leading features each), the two halves (2048 hidden units each) of the folded
  first weight matrix, of the first bias and of the second weight matrix, and the second bias. For each half it forms the
  hidden units — cosines of the ten leading features, contracted with the half's weights, plus the bias row, rectified —
  and contracts them with the half's second weights; the two halves are added onto a zero block and the bias row is added
  last. Format changes are the identity here, a contraction into a zero accumulator is the plain sum over the contracted
  axis, and a row broadcast over 512 rows reads its one row.
-/
import proofs.«120660_j65481071396002_2_alg».proof.Proof.Gen.KernelIdeal.Skeleton
import proofs.«120660_j65481071396002_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx
open scoped BigOperators

namespace Cert.KernelIdeal.Body

open Cert.KernelIdeal Cert.KernelIdeal.Gen Cert.FfnSpec

/-- The two contractions: ten features against a half's 2048 hidden units, and those against the 1024 output columns. -/
abbrev D1 := dot_S512x10_S10x2048_S512x2048_1_0_0_1_n_n
abbrev D2 := dot_S512x2048_S2048x1024_S512x1024_1_0_0_1_n_n

/-- Feature `q` of ten, as a column of the block's 128. -/
abbrev col128 (q : Fin 10) : Fin 128 := ⟨q.val, Nat.lt_of_lt_of_le q.isLt (by decide)⟩

/-! ## The body's values, named -/

/-- The cosines of the block's ten leading features. -/
def cosV (v0 : FVec Ideal S512x128 .f32) : FVec Ideal S512x10 .bf16 :=
  truncf .bf16 (cos (extractStridedSlice S512x10 ![0, 0] (shapeCast S512x128 v0 shapeCasts_S512x128_S512x128) slices_S512x128_o0_0_S512x10)) bitsLt_bf16_f32

/-- One half's hidden units for the block. -/
def hidV (g : FVec Ideal S512x10 .bf16) (w : FVec Ideal S10x2048 .bf16) (b : FVec Ideal S1x2048 .f32) : FVec Ideal S512x2048 .bf16 :=
  truncf .bf16 (maximumf (addf (matmul D1 none g (shapeCast S10x2048 w shapeCasts_S10x2048_S10x2048) (constant S512x2048 .f32 0x00000000#32))
      (broadcastTo S512x2048 (shapeCast S1x2048 b shapeCasts_S1x2048_S1x2048) broadcasts_S1x2048_S512x2048))
    (broadcast S512x2048 (Scalar.ofBits .f32 0x00000000#32))) bitsLt_bf16_f32

/-- One half's contribution to the output block. -/
def outV (h : FVec Ideal S512x2048 .bf16) (w : FVec Ideal S2048x1024 .bf16) : FVec Ideal S512x1024 .f32 :=
  matmul D2 none h (shapeCast S2048x1024 w shapeCasts_S2048x1024_S2048x1024) (constant S512x1024 .f32 0x00000000#32)

/-- The accumulated value is the two halves' contributions added onto a zero block. -/
theorem pay2_eq (v0 : Vec Ideal S512x128 .f32) (v6 : Vec Ideal S10x2048 .bf16) (v8 : Vec Ideal S1x2048 .f32) (v16 : Vec Ideal S2048x1024 .bf16)
    (v20 : Vec Ideal S10x2048 .bf16) (v22 : Vec Ideal S1x2048 .f32) (v30 : Vec Ideal S2048x1024 .bf16) :
    k0_pay2 v0 v6 v8 v16 v20 v22 v30
      = addf (addf (broadcast S512x1024 (Scalar.ofBits .f32 0x00000000#32)) (outV (hidV (cosV v0) v6 v8) v16)) (outV (hidV (cosV v0) v20 v22) v30) := rfl

/-! ## The contractions' index maps -/

theorem lhs1_0 (i : S512x2048.Idx) (k : D1.contr.Idx) : (D1.lhsIdx i k 0).val = (i 0).val := by
  unfold DotDims.lhsIdx
  rw [dif_neg (show ¬(0 : Fin S512x10.rank) ∈ D1.lhsBatch by decide), dif_pos (show (0 : Fin S512x10.rank) ∈ D1.lhsNonContracting by decide)]
  rfl
theorem rhs1_1 (i : S512x2048.Idx) (k : D1.contr.Idx) : (D1.rhsIdx i k 1).val = (i 1).val := by
  unfold DotDims.rhsIdx
  rw [dif_neg (show ¬(1 : Fin S10x2048.rank) ∈ D1.rhsBatch by decide), dif_pos (show (1 : Fin S10x2048.rank) ∈ D1.rhsNonContracting by decide)]
  rfl
theorem lhs2_0 (i : S512x1024.Idx) (k : D2.contr.Idx) : (D2.lhsIdx i k 0).val = (i 0).val := by
  unfold DotDims.lhsIdx
  rw [dif_neg (show ¬(0 : Fin S512x2048.rank) ∈ D2.lhsBatch by decide), dif_pos (show (0 : Fin S512x2048.rank) ∈ D2.lhsNonContracting by decide)]
  rfl
theorem rhs2_1 (i : S512x1024.Idx) (k : D2.contr.Idx) : (D2.rhsIdx i k 1).val = (i 1).val := by
  unfold DotDims.rhsIdx
  rw [dif_neg (show ¬(1 : Fin S2048x1024.rank) ∈ D2.rhsBatch by decide), dif_pos (show (1 : Fin S2048x1024.rank) ∈ D2.rhsNonContracting by decide)]
  rfl

/-- Row `p` against column `f`, over the ten features. -/
theorem dot1_apply (a : FVec Ideal S512x10 .bf16) (w : FVec Ideal S10x2048 .bf16) (p : Fin 512) (f : Fin 2048) :
    matmul D1 none a w (constant (F := Ideal) S512x2048 .f32 0x00000000#32) (ix2 p f) = ∑ q : Fin 10, a (ix2 p q) * w (ix2 q f) := by
  simp only [matmul]
  rw [Ideal.matmul_constant_zero_apply, ← Equiv.sum_comp (contrEquiv1 D1 10 rfl rfl).symm]
  refine Finset.sum_congr rfl fun k _ => ?_
  have hk := contrEquiv1_symm_val D1 10 rfl rfl k
  have el : D1.lhsIdx (ix2 p f) ((contrEquiv1 D1 10 rfl rfl).symm k) = ix2 p k := funext fun a => Fin.ext (by
    match a with
    | ⟨0, _⟩ => exact lhs1_0 _ _
    | ⟨1, _⟩ => exact (D1.lhsIdx_val_of_single rfl _ _).trans hk)
  have er : D1.rhsIdx (ix2 p f) ((contrEquiv1 D1 10 rfl rfl).symm k) = ix2 k f := funext fun a => Fin.ext (by
    match a with
    | ⟨0, _⟩ => exact (D1.rhsIdx_val_of_single rfl _ _).trans hk
    | ⟨1, _⟩ => exact rhs1_1 _ _)
  rw [el, er]

/-- Row `p` against column `e`, over a half's 2048 hidden units. -/
theorem dot2_apply (a : FVec Ideal S512x2048 .bf16) (w : FVec Ideal S2048x1024 .bf16) (p : Fin 512) (e : Fin 1024) :
    matmul D2 none a w (constant (F := Ideal) S512x1024 .f32 0x00000000#32) (ix2 p e) = ∑ f : Fin 2048, a (ix2 p f) * w (ix2 f e) := by
  simp only [matmul]
  rw [Ideal.matmul_constant_zero_apply, ← Equiv.sum_comp (contrEquiv1 D2 2048 rfl rfl).symm]
  refine Finset.sum_congr rfl fun k _ => ?_
  have hk := contrEquiv1_symm_val D2 2048 rfl rfl k
  have el : D2.lhsIdx (ix2 p e) ((contrEquiv1 D2 2048 rfl rfl).symm k) = ix2 p k := funext fun a => Fin.ext (by
    match a with
    | ⟨0, _⟩ => exact lhs2_0 _ _
    | ⟨1, _⟩ => exact (D2.lhsIdx_val_of_single rfl _ _).trans hk)
  have er : D2.rhsIdx (ix2 p e) ((contrEquiv1 D2 2048 rfl rfl).symm k) = ix2 k e := funext fun a => Fin.ext (by
    match a with
    | ⟨0, _⟩ => exact (D2.rhsIdx_val_of_single rfl _ _).trans hk
    | ⟨1, _⟩ => exact rhs2_1 _ _)
  rw [el, er]

/-! ## The named values at an entry -/

theorem cosV_apply (v0 : FVec Ideal S512x128 .f32) (p : Fin 512) (q : Fin 10) :
    cosV v0 (ix2 p q) = Ideal.cos (v0 (ix2 p (col128 q))) := by
  unfold cosV
  rw [shapeCast_self]
  show Ideal.cos (extractStridedSlice S512x10 ![0, 0] v0 slices_S512x128_o0_0_S512x10 (ix2 p q)) = _
  rw [slice2_axis1_apply 0 v0 slices_S512x128_o0_0_S512x10 p q (col128 q) (Nat.zero_add _).symm]

theorem hidV_apply (g : FVec Ideal S512x10 .bf16) (w : FVec Ideal S10x2048 .bf16) (b : FVec Ideal S1x2048 .f32) (p : Fin 512) (f : Fin 2048) :
    hidV g w b (ix2 p f) = unit (fun q => g (ix2 p q)) (fun q => w (ix2 q f)) (b (ix2 (0 : Fin 1) f)) := by
  unfold hidV unit
  rw [shapeCast_self, shapeCast_self]
  show max (matmul D1 none g w (constant (F := Ideal) S512x2048 .f32 0x00000000#32) (ix2 p f) + broadcastTo S512x2048 b broadcasts_S1x2048_S512x2048 (ix2 p f)) (Ideal.ofBits .f32 0x00000000#32) = _
  rw [dot1_apply, broadcastTo_1b_ab_apply, Ideal.ofBits_zero_f32]

theorem outV_apply (h : FVec Ideal S512x2048 .bf16) (w : FVec Ideal S2048x1024 .bf16) (p : Fin 512) (e : Fin 1024) :
    outV h w (ix2 p e) = ∑ f : Fin 2048, h (ix2 p f) * w (ix2 f e) := by
  unfold outV
  rw [shapeCast_self]
  exact dot2_apply h w p e

/-! ## What the body stores, at an entry -/

/-- Entry `(p, e)` of the stored block: the two halves' hidden units against their second weights, added onto zero, plus the bias. -/
theorem pay_apply (v0 : Vec Ideal S512x128 .f32) (v6 : Vec Ideal S10x2048 .bf16) (v8 : Vec Ideal S1x2048 .f32) (v16 : Vec Ideal S2048x1024 .bf16)
    (v20 : Vec Ideal S10x2048 .bf16) (v22 : Vec Ideal S1x2048 .f32) (v30 : Vec Ideal S2048x1024 .bf16) (v34 : Vec Ideal S1x1024 .f32)
    (p : Fin 512) (e : Fin 1024) :
    k0_pay1 (k0_pay2 v0 v6 v8 v16 v20 v22 v30) (k0_pay3 v34) (ix2 p e)
      = ((0 + ∑ f : Fin 2048, unit (fun q => Ideal.cos (v0 (ix2 p (col128 q)))) (fun q => v6 (ix2 q f)) (v8 (ix2 (0 : Fin 1) f)) * v16 (ix2 f e))
          + ∑ f : Fin 2048, unit (fun q => Ideal.cos (v0 (ix2 p (col128 q)))) (fun q => v20 (ix2 q f)) (v22 (ix2 (0 : Fin 1) f)) * v30 (ix2 f e))
        + v34 (ix2 (0 : Fin 1) e) := by
  rw [pay2_eq]
  unfold k0_pay1 k0_pay3
  rw [shapeCast_self]
  show ((Ideal.ofBits .f32 0x00000000#32 + outV (hidV (cosV v0) v6 v8) v16 (ix2 p e)) + outV (hidV (cosV v0) v20 v22) v30 (ix2 p e))
      + broadcastTo S512x1024 v34 broadcasts_S1x1024_S512x1024 (ix2 p e) = _
  rw [broadcastTo_1b_ab_apply, outV_apply, outV_apply, Ideal.ofBits_zero_f32]
  simp only [hidV_apply, cosV_apply]

end Cert.KernelIdeal.Body

end
-- ==== Proof.KernelHost.lean ====
/-
  The five arrays the region finds, read entry by entry from the arguments.

  Before the region the program flattens the tokens to a [16384, 1024] matrix (token `(b, s)` is row `4096·b + s`);
  multiplies each row of the first weight matrix by `cos θ` and transposes the result; transposes the second weight matrix;
  and turns each bias vector into a one-row matrix. Format changes are the identity.
-/
import proofs.«120660_j65481071396002_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.StableHlo Idealize.ShloMosaic.ValueIdx

namespace Cert.KernelIdeal.Host

open Cert.KernelIdeal Cert.KernelIdeal.Gen

variable (m : (ℓ : Loc nD τ sig) → Buf (Elt Ideal) ℓ)

/-! ## The six arguments, as arrays of extended reals -/

abbrev argX (c : Dev nD) : S4x4096x1024.Idx → Elt Ideal .f32 := m ((c : Thread nD τ).loc main_arg0)
abbrev argT (c : Dev nD) : S10.Idx → Elt Ideal .f32 := m ((c : Thread nD τ).loc main_arg1)
abbrev argW1 (c : Dev nD) : S4096x10.Idx → Elt Ideal .f32 := m ((c : Thread nD τ).loc main_arg2)
abbrev argB1 (c : Dev nD) : S4096.Idx → Elt Ideal .f32 := m ((c : Thread nD τ).loc main_arg3)
abbrev argW2 (c : Dev nD) : S1024x4096.Idx → Elt Ideal .f32 := m ((c : Thread nD τ).loc main_arg4)
abbrev argB2 (c : Dev nD) : S1024.Idx → Elt Ideal .f32 := m ((c : Thread nD τ).loc main_arg5)

/-! ## The arrays as terms of the arguments -/

theorem tokens_eq (c : Dev nD) : (V m c main_v0 : S16384x1024.Idx → Elt Ideal .f32)
    = shapeCast S16384x1024 (argX m c) shapeCasts_S4x4096x1024_S16384x1024 := by
  show StableHlo.after hostOps0 (fun b => m (c, b)) (Proc.devRef .tc main_v0) = _
  after_results <;> rfl

theorem w1t_eq (c : Dev nD) : (V m c main_v6 : S10x4096.Idx → Elt Ideal .bf16)
    = truncf (F := Ideal) .bf16 (transpose S10x4096 [1, 0] (mulf (F := Ideal) (argW1 m c)
        (broadcastInDim S4096x10 ![0, 1] bcast_S1x10_S4096x10_0_1 (broadcastInDim S1x10 ![1] bcast_S10_S1x10_1 (Host.cos (F := Ideal) (argT m c)))))
        transposes_S4096x10_S10x4096_1_0) bitsLt_bf16_f32 := by
  show StableHlo.after hostOps0 (fun b => m (c, b)) (Proc.devRef .tc main_v6) = _
  after_results <;> rfl

theorem w2t_eq (c : Dev nD) : (V m c main_v8 : S4096x1024.Idx → Elt Ideal .bf16)
    = truncf (F := Ideal) .bf16 (transpose S4096x1024 [1, 0] (argW2 m c) transposes_S1024x4096_S4096x1024_1_0) bitsLt_bf16_f32 := by
  show StableHlo.after hostOps0 (fun b => m (c, b)) (Proc.devRef .tc main_v8) = _
  after_results <;> rfl

theorem b1row_eq (c : Dev nD) : (V m c main_v9 : S1x4096.Idx → Elt Ideal .f32)
    = shapeCast S1x4096 (argB1 m c) shapeCasts_S4096_S1x4096 := by
  show StableHlo.after hostOps0 (fun b => m (c, b)) (Proc.devRef .tc main_v9) = _
  after_results <;> rfl

theorem b2row_eq (c : Dev nD) : (V m c main_v10 : S1x1024.Idx → Elt Ideal .f32)
    = shapeCast S1x1024 (argB2 m c) shapeCasts_S1024_S1x1024 := by
  show StableHlo.after hostOps0 (fun b => m (c, b)) (Proc.devRef .tc main_v10) = _
  after_results <;> rfl

/-! ## The same at an entry -/

/-- Row `r = 4096·b + s` of the flattened tokens is token `(b, s)`. -/
theorem tokens_apply (c : Dev nD) (r : Fin 16384) (k : Fin 1024) (b : Fin 4) (s : Fin 4096) (h : r.val = b.val * 4096 + s.val) :
    (V m c main_v0 : S16384x1024.Idx → Elt Ideal .f32) (ix2 r k)
      = argX m c (ix3 b s k) := by
  rw [tokens_eq]
  refine shapeCast_apply (argX m c) shapeCasts_S4x4096x1024_S16384x1024 (ix2 r k) (ix3 b s k) ?_
  rw [Shape.rowMajor_val_three, Shape.rowMajor_val_two]
  show (b.val * 4096 + s.val) * 1024 + k.val = r.val * 1024 + k.val
  rw [h]

/-- Entry `(q, f)` of the folded, transposed first weight matrix is `w1[f, q] · cos θ_q`. -/
theorem w1t_apply (c : Dev nD) (q : Fin 10) (f : Fin 4096) :
    (V m c main_v6 : S10x4096.Idx → Elt Ideal .bf16) (ix2 q f)
      = argW1 m c (ix2 f q) * Ideal.cos (argT m c (ix1 q)) := by
  rw [w1t_eq]
  rw [truncf_apply, transpose_ix2_apply, mulf_apply]
  refine congrArg (argW1 m c (ix2 f q) * ·) ?_
  rw [broadcastInDim_apply ![0, 1] bcast_S1x10_S4096x10_0_1 _ (ix2 f q) (ix2 (0 : Fin 1) q) (fun a => by
    match a with
    | ⟨0, _⟩ => show 0 = if (1 : Nat) = 1 then 0 else f.val; rw [if_pos rfl]
    | ⟨1, _⟩ => show q.val = if (10 : Nat) = 1 then 0 else q.val; rw [if_neg (by decide)])]
  rw [broadcastInDim_apply ![1] bcast_S10_S1x10_1 _ (ix2 (0 : Fin 1) q) (ix1 q) (fun a => by
    match a with
    | ⟨0, _⟩ => show q.val = if (10 : Nat) = 1 then 0 else q.val; rw [if_neg (by decide)])]
  rfl

/-- Entry `(f, e)` of the transposed second weight matrix is `w2[e, f]`. -/
theorem w2t_apply (c : Dev nD) (f : Fin 4096) (e : Fin 1024) :
    (V m c main_v8 : S4096x1024.Idx → Elt Ideal .bf16) (ix2 f e)
      = argW2 m c (ix2 e f) := by
  rw [w2t_eq]
  rw [truncf_apply, transpose_ix2_apply]

/-- The first bias as a row. -/
theorem b1row_apply (c : Dev nD) (f : Fin 4096) :
    (V m c main_v9 : S1x4096.Idx → Elt Ideal .f32) (ix2 (0 : Fin 1) f)
      = argB1 m c (ix1 f) := by
  rw [b1row_eq, shapeCast_a_1a_apply]

/-- The second bias as a row. -/
theorem b2row_apply (c : Dev nD) (e : Fin 1024) :
    (V m c main_v10 : S1x1024.Idx → Elt Ideal .f32) (ix2 (0 : Fin 1) e)
      = argB2 m c (ix1 e) := by
  rw [b2row_eq, shapeCast_a_1a_apply]

end Cert.KernelIdeal.Host

end
-- ==== Proof.KernelBlocks.lean ====
/-
  From blocks to the whole result matrix.

  Grid point `t` of 32 handles token rows `512·t … 512·t + 511`: it reads that row block of the flattened tokens and the
  whole of the four parameter arrays, and writes the same row block of the [16384, 1024] result. Entry `(p, e)` of what
  it writes is the folded, halved arrangement for token row `512·t + p`, which by the one law of the specification is the
  plain arrangement `G2` there. The 32 row blocks tile the matrix, so the matrix ends holding `G2` everywhere.
-/
import proofs.«120660_j65481071396002_2_alg».proof.Proof.Gen.KernelIdeal.Frame
import proofs.«120660_j65481071396002_2_alg».proof.Proof.KernelPayload
import proofs.«120660_j65481071396002_2_alg».proof.Proof.KernelHost
import proofs.«120660_j65481071396002_2_alg».proof.Proof.Spec
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.Blocks

open Cert.KernelIdeal Cert.KernelIdeal.Gen Cert.KernelIdeal.Body Cert.KernelIdeal.Host Cert.FfnSpec

variable (m : (ℓ : Loc nD τ sig) → Buf (Elt Ideal) ℓ)

theorem hz : (![0, 0] : Fin 2 → Nat) = fun _ => 0 := funext fun a => by fin_cases a <;> rfl

/-- The result matrix as a function of the six arguments. -/
abbrev R2 (c : Dev nD) : S16384x1024.Idx → Elt Ideal .f32 :=
  G2 (argX m c) (argT m c) (argW1 m c) (argB1 m c) (argW2 m c) (argB2 m c)

/-! ## The half-loads, as indices of the parameter blocks -/

theorem idx_w1_lo (q : Fin 10) (f : Fin 2048) : r0_1.idx (ix2 q f) = ix2 q (lo f) := funext fun a => Fin.ext (by
  match a with
  | ⟨0, _⟩ => show 0 + 1 * q.val = q.val; omega
  | ⟨1, _⟩ => show 0 + 1 * f.val = f.val; omega)
theorem idx_w1_hi (q : Fin 10) (f : Fin 2048) : r0_4.idx (ix2 q f) = ix2 q (hi f) := funext fun a => Fin.ext (by
  match a with
  | ⟨0, _⟩ => show 0 + 1 * q.val = q.val; omega
  | ⟨1, _⟩ => show 2048 + 1 * f.val = 2048 + f.val; omega)
theorem idx_b1_lo (f : Fin 2048) : r0_2.idx (ix2 (0 : Fin 1) f) = ix2 (0 : Fin 1) (lo f) := funext fun a => Fin.ext (by
  match a with
  | ⟨0, _⟩ => rfl
  | ⟨1, _⟩ => show 0 + 1 * f.val = f.val; omega)
theorem idx_b1_hi (f : Fin 2048) : r0_5.idx (ix2 (0 : Fin 1) f) = ix2 (0 : Fin 1) (hi f) := funext fun a => Fin.ext (by
  match a with
  | ⟨0, _⟩ => rfl
  | ⟨1, _⟩ => show 2048 + 1 * f.val = 2048 + f.val; omega)
theorem idx_w2_lo (f : Fin 2048) (e : Fin 1024) : r0_3.idx (ix2 f e) = ix2 (lo f) e := funext fun a => Fin.ext (by
  match a with
  | ⟨0, _⟩ => show 0 + 1 * f.val = f.val; omega
  | ⟨1, _⟩ => show 0 + 1 * e.val = e.val; omega)
theorem idx_w2_hi (f : Fin 2048) (e : Fin 1024) : r0_6.idx (ix2 f e) = ix2 (hi f) e := funext fun a => Fin.ext (by
  match a with
  | ⟨0, _⟩ => show 2048 + 1 * f.val = 2048 + f.val; omega
  | ⟨1, _⟩ => show 0 + 1 * e.val = e.val; omega)

/-- Entry `(p, e)` of what the body leaves in the output buffer, from the five input blocks. -/
theorem out_apply (x0 : Vec Ideal S512x128 .f32) (x1 : Vec Ideal S10x4096 .bf16) (x2 : Vec Ideal S1x4096 .f32) (x3 : Vec Ideal S4096x1024 .bf16)
    (x4 : Vec Ideal S1x1024 .f32) (p : Fin 512) (e : Fin 1024) :
    out0_5 x0 x1 x2 x3 x4 (ix2 p e)
      = ((0 + ∑ f : Fin 2048, unit (fun q => Ideal.cos (x0 (ix2 p (col128 q)))) (fun q => x1 (ix2 q (lo f))) (x2 (ix2 (0 : Fin 1) (lo f))) * x3 (ix2 (lo f) e))
          + ∑ f : Fin 2048, unit (fun q => Ideal.cos (x0 (ix2 p (col128 q)))) (fun q => x1 (ix2 q (hi f))) (x2 (ix2 (0 : Fin 1) (hi f))) * x3 (ix2 (hi f) e))
        + x4 (ix2 (0 : Fin 1) e) := by
  unfold out0_5
  rw [View.canon_unit_zero hz]
  simp only [View.ld_unit_zero (S := S512x128) hz, View.ld_unit_zero (S := S1x1024) hz]
  refine (pay_apply x0 (View.ld x1 r0_1) (View.ld x2 r0_2) (View.ld x3 r0_3) (View.ld x1 r0_4) (View.ld x2 r0_5) (View.ld x3 r0_6) x4 p e).trans ?_
  simp only [View.ld, idx_w1_lo, idx_w1_hi, idx_b1_lo, idx_b1_hi, idx_w2_lo, idx_w2_hi]

/-! ## The blocks, as entries of the arrays the region finds -/

/-- Where each window's block sits at point `t`: the tokens' and the result's at row block `t`, the parameters' at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem tokens_blk (c : Dev nD) (t : Fin cfg0.N) (p : Fin 512) (k : Fin 128) (r : Fin 16384) (k' : Fin 1024)
    (hr : r.val = t.val * 512 + p.val) (hk : k'.val = k.val) :
    (iblk m c 0 t : Vec Ideal S512x128 .f32) (ix2 p k) = (V m c main_v0 : S16384x1024.Idx → Elt Ideal .f32) (ix2 r k') := by
  obtain ⟨e0, e1, -⟩ := idx_facts t
  unfold iblk
  rw [View.read_apply]
  show (V m c main_v0 : S16384x1024.Idx → Elt Ideal .f32) _ = _
  refine congrArg (V m c main_v0 : S16384x1024.Idx → Elt Ideal .f32) ?_
  funext a; apply Fin.ext
  match a with
  | ⟨0, _⟩ => show win0_0.index t (0 : Fin 2) * 512 + 1 * p.val = r.val; rw [e0, hr]; omega
  | ⟨1, _⟩ => show win0_0.index t (1 : Fin 2) * 128 + 1 * k.val = k'.val; rw [e1, hk]; omega

theorem w1t_blk (c : Dev nD) (t : Fin cfg0.N) (q : Fin 10) (f : Fin 4096) :
    (iblk m c 1 t : Vec Ideal S10x4096 .bf16) (ix2 q f) = (V m c main_v6 : S10x4096.Idx → Elt Ideal .bf16) (ix2 q f) := by
  obtain ⟨-, -, e0, e1, -⟩ := idx_facts t
  unfold iblk
  rw [View.read_apply]
  show (V m c main_v6 : S10x4096.Idx → Elt Ideal .bf16) _ = _
  refine congrArg (V m c main_v6 : S10x4096.Idx → Elt Ideal .bf16) ?_
  funext a; apply Fin.ext
  match a with
  | ⟨0, _⟩ => show win0_1.index t (0 : Fin 2) * 10 + 1 * q.val = q.val; rw [e0]; omega
  | ⟨1, _⟩ => show win0_1.index t (1 : Fin 2) * 4096 + 1 * f.val = f.val; rw [e1]; omega

theorem b1row_blk (c : Dev nD) (t : Fin cfg0.N) (f : Fin 4096) :
    (iblk m c 2 t : Vec Ideal S1x4096 .f32) (ix2 (0 : Fin 1) f) = (V m c main_v9 : S1x4096.Idx → Elt Ideal .f32) (ix2 (0 : Fin 1) f) := by
  obtain ⟨-, -, -, -, e0, e1, -⟩ := idx_facts t
  unfold iblk
  rw [View.read_apply]
  show (V m c main_v9 : S1x4096.Idx → Elt Ideal .f32) _ = _
  refine congrArg (V m c main_v9 : S1x4096.Idx → Elt Ideal .f32) ?_
  funext a; apply Fin.ext
  match a with
  | ⟨0, _⟩ => show win0_2.index t (0 : Fin 2) * 1 + 1 * 0 = 0; rw [e0]
  | ⟨1, _⟩ => show win0_2.index t (1 : Fin 2) * 4096 + 1 * f.val = f.val; rw [e1]; omega

theorem w2t_blk (c : Dev nD) (t : Fin cfg0.N) (f : Fin 4096) (e : Fin 1024) :
    (iblk m c 3 t : Vec Ideal S4096x1024 .bf16) (ix2 f e) = (V m c main_v8 : S4096x1024.Idx → Elt Ideal .bf16) (ix2 f e) := by
  obtain ⟨-, -, -, -, -, -, e0, e1, -⟩ := idx_facts t
  unfold iblk
  rw [View.read_apply]
  show (V m c main_v8 : S4096x1024.Idx → Elt Ideal .bf16) _ = _
  refine congrArg (V m c main_v8 : S4096x1024.Idx → Elt Ideal .bf16) ?_
  funext a; apply Fin.ext
  match a with
  | ⟨0, _⟩ => show win0_3.index t (0 : Fin 2) * 4096 + 1 * f.val = f.val; rw [e0]; omega
  | ⟨1, _⟩ => show win0_3.index t (1 : Fin 2) * 1024 + 1 * e.val = e.val; rw [e1]; omega

theorem b2row_blk (c : Dev nD) (t : Fin cfg0.N) (e : Fin 1024) :
    (iblk m c 4 t : Vec Ideal S1x1024 .f32) (ix2 (0 : Fin 1) e) = (V m c main_v10 : S1x1024.Idx → Elt Ideal .f32) (ix2 (0 : Fin 1) e) := by
  obtain ⟨-, -, -, -, -, -, -, -, e0, e1, -⟩ := idx_facts t
  unfold iblk
  rw [View.read_apply]
  show (V m c main_v10 : S1x1024.Idx → Elt Ideal .f32) _ = _
  refine congrArg (V m c main_v10 : S1x1024.Idx → Elt Ideal .f32) ?_
  funext a; apply Fin.ext
  match a with
  | ⟨0, _⟩ => show win0_4.index t (0 : Fin 2) * 1 + 1 * 0 = 0; rw [e0]
  | ⟨1, _⟩ => show win0_4.index t (1 : Fin 2) * 1024 + 1 * e.val = e.val; rw [e1]; omega

/-! ## The blocks' entries, from the arguments -/

/-- Feature `q` of row `p` of point `t`'s token block is feature `q` of token row `r = 512·t + p`. -/
theorem x_entry (c : Dev nD) (t : Fin cfg0.N) (p : Fin 512) (q : Fin 10) (r : Fin 16384) (hr : r.val = t.val * 512 + p.val) :
    (iblk m c 0 t : Vec Ideal S512x128 .f32) (ix2 p (col128 q)) = argX m c (ix3 (batchOf r) (posOf r) (col q)) :=
  (tokens_blk m c t p (col128 q) r (col q) hr rfl).trans
    (tokens_apply m c r (col q) (batchOf r) (posOf r) (by show r.val = r.val / 4096 * 4096 + r.val % 4096; omega))

theorem w1_entry (c : Dev nD) (t : Fin cfg0.N) (q : Fin 10) (f : Fin 4096) :
    (iblk m c 1 t : Vec Ideal S10x4096 .bf16) (ix2 q f) = argW1 m c (ix2 f q) * Ideal.cos (argT m c (ix1 q)) :=
  (w1t_blk m c t q f).trans (w1t_apply m c q f)

theorem b1_entry (c : Dev nD) (t : Fin cfg0.N) (f : Fin 4096) :
    (iblk m c 2 t : Vec Ideal S1x4096 .f32) (ix2 (0 : Fin 1) f) = argB1 m c (ix1 f) :=
  (b1row_blk m c t f).trans (b1row_apply m c f)

theorem w2_entry (c : Dev nD) (t : Fin cfg0.N) (f : Fin 4096) (e : Fin 1024) :
    (iblk m c 3 t : Vec Ideal S4096x1024 .bf16) (ix2 f e) = argW2 m c (ix2 e f) :=
  (w2t_blk m c t f e).trans (w2t_apply m c f e)

theorem b2_entry (c : Dev nD) (t : Fin cfg0.N) (e : Fin 1024) :
    (iblk m c 4 t : Vec Ideal S1x1024 .f32) (ix2 (0 : Fin 1) e) = argB2 m c (ix1 e) :=
  (b2row_blk m c t e).trans (b2row_apply m c e)

end Cert.KernelIdeal.Blocks

end
-- ==== Proof.KernelMatrix.lean ====
/-
  The result matrix after the run.

  What grid point `t` writes back is row block `t` of `G2` of the arguments: entry `(p, e)` of the body's output buffer is
  the folded, halved arrangement for token row `512·t + p` (the blocks' entries read from the arguments), and the
  specification's one law turns it into the plain arrangement. Row `r` of the matrix lies in the block of point
  `r / 512`, so the 32 blocks cover the matrix and it ends holding `G2`.
-/
import proofs.«120660_j65481071396002_2_alg».proof.Proof.KernelBlocks

noncomputable section

open Idealize.ShloMosaic Idealize.ShloMosaic.TcCoe Idealize.SL.Sem Idealize.ShloMosaic.ValueIdx
open Idealize.ShloMosaic.Pipeline (Dat)
open scoped BigOperators

namespace Cert.KernelIdeal.Blocks

open Cert.KernelIdeal Cert.KernelIdeal.Gen Cert.KernelIdeal.Body Cert.KernelIdeal.Host Cert.FfnSpec

variable (m : (ℓ : Loc nD τ sig) → Buf (Elt Ideal) ℓ)

/-- Entry `(p, e)` of the output buffer after the body at point `t` is `G2` at token row `r = 512·t + p`, column `e`. -/
theorem out_entry (c : Dev nD) (t : Fin cfg0.N) (p : Fin 512) (e : Fin 1024) (r : Fin 16384) (hr : r.val = t.val * 512 + p.val) :
    out0_5 (iblk m c 0 t) (iblk m c 1 t) (iblk m c 2 t) (iblk m c 3 t) (iblk m c 4 t) (ix2 p e) = R2 m c (ix2 r e) := by
  refine (out_apply (iblk m c 0 t) (iblk m c 1 t) (iblk m c 2 t) (iblk m c 3 t) (iblk m c 4 t) p e).trans ?_
  simp only [x_entry m c t p _ r hr, w1_entry m c t, b1_entry m c t, w2_entry m c t, b2_entry m c t]
  exact halves_eq (fun q => Ideal.cos (argX m c (ix3 (batchOf r) (posOf r) (col q)))) (fun q => Ideal.cos (argT m c (ix1 q)))
    (fun f q => argW1 m c (ix2 f q)) (fun f => argB1 m c (ix1 f)) (fun f => argW2 m c (ix2 e f)) (argB2 m c (ix1 e))

/-- WHAT POINT `t` WRITES BACK is row block `t` of `G2` of the arguments. -/
theorem flushed_eq (c : Dev nD) (t : Fin cfg0.N) :
    (dats m 0 c).flushed 5 t = ((cfg0.win 5).blk t).view.read (Elt Ideal) (R2 m c) := by
  show (cfg0.win 5).cut (grid0.coords t) ((dats m 0 c).after 5 t) = _
  rw [after0_5]
  funext j
  obtain ⟨p, e, rfl⟩ : ∃ (p : Fin 512) (e : Fin 1024), j = ix2 p e := ⟨j 0, j 1, eq_ix2 j⟩
  rw [View.read_apply]
  obtain ⟨-, -, -, -, -, -, -, -, -, -, e0, e1⟩ := idx_facts t
  have hN : cfg0.N = 32 := N_0
  have hrow : t.val * 512 + p.val < 16384 := by have := t.isLt; have := p.isLt; omega
  have hemb : ((cfg0.win 5).blk t).view.emb (ix2 p e) = ix2 (⟨t.val * 512 + p.val, hrow⟩ : Fin 16384) e := by
    funext a; apply Fin.ext
    match a with
    | ⟨0, _⟩ => show win0_5.index t (0 : Fin 2) * 512 + 1 * p.val = t.val * 512 + p.val; rw [e0]; omega
    | ⟨1, _⟩ => show win0_5.index t (1 : Fin 2) * 1024 + 1 * e.val = e.val; rw [e1]; omega
  show out0_5 (iblk m c 0 t) (iblk m c 1 t) (iblk m c 2 t) (iblk m c 3 t) (iblk m c 4 t) (ix2 p e) = R2 m c (((cfg0.win 5).blk t).view.emb (ix2 p e))
  rw [hemb]
  exact out_entry m c t p e ⟨t.val * 512 + p.val, hrow⟩ rfl

/-- An index of the matrix is in point `t`'s block iff each coordinate is in the block's range on its axis. -/
theorem mem_blk (t : Fin cfg0.N) (i : S16384x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v11).slice (win0_5.rect t)).set ↔ _
  rw [View.set_slice_whole, Rect.mem_set_unit]
  exact Iff.rfl

/-- Row `r` is in the block of point `r / 512`. -/
theorem cover (i : S16384x1024.Idx) : ∃ t : Fin cfg0.N, (cfg0.win 5).flush t = true ∧ i ∈ ((cfg0.win 5).blk t).view.set := by
  have hN : cfg0.N = 32 := N_0
  have h0 : (i 0).val < 16384 := idx2_lt0 i
  have h1 : (i 1).val < 1024 := idx2_lt1 i
  obtain ⟨t, ht⟩ : ∃ t : Fin cfg0.N, t.val = (i 0).val / 512 := ⟨⟨(i 0).val / 512, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 512 ≤ (i 0).val ∧ (i 0).val < win0_5.index t (0 : Fin 2) * 512 + 512
    rw [e0, ht]; omega
  | ⟨1, _⟩ =>
    show win0_5.index t (1 : Fin 2) * 1024 ≤ (i 1).val ∧ (i 1).val < win0_5.index t (1 : Fin 2) * 1024 + 1024
    rw [e1]; omega

/-- THE MATRIX after the run is `G2` of the arguments. -/
theorem final (c : Dev nD) : (dats m 0 c).arrAt 5 cfg0.N = R2 m c :=
  (dats m 0 c).arrAt_eq_of_cover 5 (R2 m c) (fun t _ => flushed_eq m c t) cover

end Cert.KernelIdeal.Blocks

end
-- ==== Proof.KernelRun.lean ====
/-
  The whole program's run, read: the result array and the six arguments after every fair execution.

  After the region one operation remains: the [16384, 1024] result matrix is reshaped to [4, 4096, 1024]. The matrix holds
  `G2` of the arguments, and unflattening `G2` gives `G`. The arguments are written by no operation and end as launched.
-/
import proofs.«120660_j65481071396002_2_alg».proof.Proof.KernelMatrix
import Idealize.ShloMosaic.Lib.StableHlo.Run

noncomputable section

open Idealize.ShloMosaic Idealize.ShloMosaic.TcCoe Idealize.SL.Sem Idealize.ShloMosaic.StableHlo Idealize.ShloMosaic.ValueIdx
open Idealize.ShloMosaic.Pipeline (Dat)

namespace Cert.KernelIdeal.Run

open Cert.KernelIdeal Cert.KernelIdeal.Gen Cert.KernelIdeal.Host Cert.KernelIdeal.Blocks Cert.FfnSpec

variable (m : (ℓ : Loc nD τ sig) → Buf (Elt Ideal) ℓ) (ρ : Dev nD → PrngReg)

/-- The result as a function of the six arguments. -/
abbrev R (c : Dev nD) : S4x4096x1024.Idx → Elt Ideal .f32 :=
  G (argX m c) (argT m c) (argW1 m c) (argB1 m c) (argW2 m c) (argB2 m c)

/-- The reshaped result matrix is `G` of the arguments. -/
theorem result_eq (c : Dev nD) :
    (Pipeline.afterTail₀ cfgs (dats m) 0 (V0 m) [hostOps1] c main_v12 : S4x4096x1024.Idx → Elt Ideal .f32) = R m c := by
  unfold Pipeline.afterTail₀
  show StableHlo.after hostOps1 _ (Proc.devRef .tc main_v12) = _
  after_results
  show shapeCast S4x4096x1024 (Pipeline.withArrays spec0 c (V0 m c) (fun w => (dats m 0 c).arrAt w cfg0.N) (Proc.devRef .tc main_v11))
      shapeCasts_S16384x1024_S4x4096x1024 = _
  rw [(Pipeline.withArrays_arr spec0 launch0.win.arr_inj c _ _ 5).trans (final m c)]
  exact unflatten_G2 _ _ _ _ _ _ _

/-- THE RUN, READ: every weakly fair execution terminates with the result array at `G` of the arguments and the arguments
    as launched. -/
theorem run : θ_run defs (onTc (τ := τ) (main (F := Ideal))) ⟨m, fun _ => 0, ρ⟩ fun r => ∀ c : Dev nD,
      r.2.mem ((c.tc : Thread nD τ).loc main_v12) = R m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v12 (Pipeline.mem_restRefs_of main_v12 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Run

end
-- ==== Proof.lean ====
/-
  A two-layer feed-forward block over cosine features, in two arrangements, proved equal over the extended reals.

  Each of the 4 × 4096 tokens carries 1024 features, of which the first ten are read. The reference takes feature `q` as
  `c_q = cos x_q · cos θ_q`, forms 4096 hidden units `max (Σ_q c_q · w1[f,q] + b1[f]) 0` and 1024 outputs
  `Σ_f hidden_f · w2[e,f] + b2[e]`. The kernel folds `cos θ` into the first weight matrix before its region
  (`cos x_q · (w1[f,q] · cos θ_q)`), flattens the tokens to 16384 rows handled 512 at a time, adds the hidden units'
  contributions in two halves of 2048 onto a zero block, and reshapes the result back.

  The two are one function `G` of the arguments (Proof/Spec.lean): products of extended reals commute and associate, a sum
  over 4096 terms is the sum of its two halves, `0 + a = a`, and changes of float format are the identity. None of these
  needs a finite input, so the precondition is not opened. The reference's run is read index by index in
  Proof/RefValue.lean; the kernel's body, the arrays its region finds, its blocks, the result matrix and the whole run in
  Proof/KernelPayload.lean, KernelHost.lean, KernelBlocks.lean, KernelMatrix.lean and KernelRun.lean. The idealization
  rewrote nothing, so that conjunct is trivial; the three frames are the programs' runs with the result dropped.
-/
import proofs.«120660_j65481071396002_2_alg».proof.Defs
import proofs.«120660_j65481071396002_2_alg».proof.Proof.Gen.Kernel
import proofs.«120660_j65481071396002_2_alg».proof.Proof.Gen.Kernel.Frame
import proofs.«120660_j65481071396002_2_alg».proof.Proof.Gen.KernelIdeal
import proofs.«120660_j65481071396002_2_alg».proof.Proof.Gen.KernelIdeal.Frame
import proofs.«120660_j65481071396002_2_alg».proof.Proof.Gen.ReferenceIdeal
import proofs.«120660_j65481071396002_2_alg».proof.Proof.Gen.Pre_finite_inputs
import proofs.«120660_j65481071396002_2_alg».proof.Proof.Gen.ReferenceIdeal.Run
import proofs.«120660_j65481071396002_2_alg».proof.Proof.Gen.ReferenceIdeal.Read
import proofs.«120660_j65481071396002_2_alg».proof.Proof.RefValue
import proofs.«120660_j65481071396002_2_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: nothing was rewritten. -/
theorem preserves : Cert.preserves_Kernel_KernelIdeal := trivial

/-- Both programs end with the result array at `G` of the arguments: the kernel's by its run read block by block, the
    reference's by its run read index by index, from arguments that agree. -/
theorem algebraic : Cert.algebraic_KernelIdeal_ReferenceIdeal := by
  intro m ρ m' ρ' _ hagree
  refine ⟨fun c => Cert.KernelIdeal.Run.R m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Run.R m c
  rw [Cert.ReferenceIdeal.Read.val_main_v14_eq, Cert.ReferenceIdeal.RefValue.ref_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
